-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048 : Shape := ⟨1, ![2048]⟩
abbrev S2048x2048 : Shape := ⟨2, ![2048, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_arg1 : FVec F S2048 .f32) (main_arg7 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg7
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_cst_8 : FVec F S_ .f32 := constant S_ .f32 0x00000000#32
  let main_v24 : FVec F S2048 .f32 := broadcastInDim S2048 ![] bcast_S_S2048 main_cst_8
  let main_v25 : IVec S2048 1 := cmpf .une main_arg1 main_v24
  let main_c_9 : IVec S_ 1 := constantI S_ 1 1#1
  let main_v26 : IVec S_ 1 := (fun x v => Host.reduce IntOp.andi x v reducesTo_S2048_S_d0 h_S_) main_v25 main_c_9
  let main_v27 : IVec S_ 1 := andi main_v23 main_v26
  main_v27

def fn {F : FTy → Type} [FloatOps F] (main_arg0 : FVec F S32768x2048 .f32) (main_arg1 : FVec F S2048 .f32) (main_arg2 : FVec F S2048 .f32) (main_arg3 : IVec S2048 32) (main_arg4 : IVec S2048x2048 32) (main_arg5 : FVec F S2048 .f32) (main_arg6 : IVec S2048 32) (main_arg7 : FVec F S2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg5
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg1 main_arg7 main_v13 main_v16
-- ==== Kernel.lean ====
abbrev S32768x2048 : Shape := ⟨2, ![32768, 2048]⟩
abbrev S2048 : Shape := ⟨1, ![2048]⟩
abbrev S2048x2048 : Shape := ⟨2, ![2048, 2048]⟩
abbrev S_ : Shape := ⟨0, ![]⟩
abbrev S2048x1 : Shape := ⟨2, ![2048, 1]⟩
abbrev S1x2048 : Shape := ⟨2, ![1, 2048]⟩
abbrev S1024x2048 : Shape := ⟨2, ![1024, 2048]⟩

abbrev nBuf : Space → Nat
  | .hbm => 37
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S2048, .i32⟩
  | .hbm, ⟨4, _⟩ => ⟨S2048x2048, .i32⟩
  | .hbm, ⟨5, _⟩ => ⟨S2048, .f32⟩
  | .hbm, ⟨6, _⟩ => ⟨S2048, .i32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S2048x2048, .f32⟩
  | .hbm, ⟨20, _⟩ => ⟨S2048, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x2048, .bf16⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S1024x2048_S2048x2048_S1024x2048_1_0_0_1_n_n_wf : DotDims.WF S1024x2048 S2048x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S32768x2048.size a
  hwx0_6 : ∀ i : grid0.Coords, EltTy.bits .f32 = 32 ∨ (Rect.block (s := S32768x2048) S1024x2048.size (cc0_transform_6 i) (hinb0_6 i)).WholeWords (EltTy.packing .f32)

variable [Facts₀]

def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1024x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S2048 : Shape := ⟨1, ![2048]⟩
abbrev S2048x2048 : Shape := ⟨2, ![2048, 2048]⟩
abbrev S1x2048 : Shape := ⟨2, ![1, 2048]⟩
abbrev S_ : Shape := ⟨0, ![]⟩
abbrev S2048x1 : Shape := ⟨2, ![2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S2048, .i32⟩
  | .hbm, ⟨4, _⟩ => ⟨S2048x2048, .i32⟩
  | .hbm, ⟨5, _⟩ => ⟨S2048, .f32⟩
  | .hbm, ⟨6, _⟩ => ⟨S2048, .i32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S32768x2048, .f32⟩
  | .hbm, ⟨11, _⟩ => ⟨S32768x2048, .f32⟩
  | .hbm, ⟨12, _⟩ => ⟨S1x2048, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768x2048, .f32⟩
  | .hbm, ⟨26, _⟩ => ⟨S32768x2048, .f32⟩
  | .hbm, ⟨27, _⟩ => ⟨S1x2048, .f32⟩
  | .hbm, ⟨28, _⟩ => ⟨S32768x2048, .f32⟩
  | .hbm, ⟨29, _⟩ => ⟨S32768x2048, .f32⟩
  | .hbm, ⟨30, _⟩ => ⟨S1x2048, .f32⟩
  | .hbm, ⟨31, _⟩ => ⟨S32768x2048, .f32⟩
  | .hbm, ⟨32, _⟩ => ⟨S32768x2048, .f32⟩
  | .hbm, ⟨33, _⟩ => ⟨S2048x2048, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S32768x2048, .f32⟩
  | .hbm, ⟨42, _⟩ => ⟨S1x2048, .f32⟩
  | .hbm, ⟨43, _⟩ => ⟨S32768x2048, .f32⟩
  | .hbm, ⟨44, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  dot_S32768x2048_S2048x2048_S32768x2048_1_1_0_0_n_n_wf : DotDims.WF S32768x2048 S2048x2048 S32768x2048 [1] [1] [0] [0] [] []

variable [Facts₀]

def dot_S32768x2048_S2048x2048_S32768x2048_1_1_0_0_n_n : DotDims S32768x2048 S2048x2048 S32768x2048 where
  lhsContracting := [1]
  rhsContracting := [1]
  lhsNonContracting := [0]
  rhsNonContracting := [0]
  lhsBatch := []
  rhsBatch := []
  wf := dot_S32768x2048_S2048x2048_S32768x2048_1_1_0_0_n_n_wf

class Facts : Prop extends Facts₀ where

variable [Facts]
-- ==== Proof.QuantLaw.lean ====
/-
  The scalar mathematics of the fake-quantised linear layer, on the extended reals.

  Per input channel `d` the layer carries a reparametrisation scale `r`, a quantisation scale `s` and an integer
  zero point `z`; an activation `x` is quantised to the integer grid, clipped to the int8 range and dequantised.
  Written one way the quantised value is
      q  = clip (round (x · (1 / (r · s)))) (-128 - z) (127 - z)               and the term summed over `d` is  q · (W · s),
  written the other way it is
      q' = clip (round ((x / r) / s) + z) (-128) 127 - z                        and the term is  (q' · s) · W.
  For real `x`, `r ≠ 0`, `s ≠ 0` the two arguments of `round` are one real number, and shifting a clip window by `z`
  commutes with adding `z` inside it, so `q = q'`; the terms then differ by the order of a product. For `s = 0` both
  terms carry the factor `0` and vanish, whatever `q`, `q'` and `W` are. Only `r = 0` is excluded: there the second form
  divides by zero.
-/
import Idealize.ShloMosaic.PureOps.Ideal

noncomputable section

namespace Cert.FakeQuantLinear

open Idealize.ShloMosaic

/-! ## The three literal words, as the reals they denote -/

/-- The word of `1.0` denotes the real `1`. -/
theorem word_one : Ideal.ofBits .f32 0x3F800000#32 = ((1 : ℝ) : EReal) := by
  simp [Ideal.ofBits, Ideal.ieee, -EReal.coe_mul]; norm_num

/-- The word of `-128.0`, the lower end of the int8 range, denotes the real `-128`. -/
theorem word_qmin : Ideal.ofBits .f32 0xC3000000#32 = ((-128 : ℝ) : EReal) := by
  simp [Ideal.ofBits, Ideal.ieee, -EReal.coe_mul]; norm_num

/-- The word of `127.0`, the upper end of the int8 range, denotes the real `127`. -/
theorem word_qmax : Ideal.ofBits .f32 0x42FE0000#32 = ((127 : ℝ) : EReal) := by
  simp [Ideal.ofBits, Ideal.ieee, -EReal.coe_mul]; norm_num

/-! ## Maximum and minimum of reals inside the extended reals -/

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

/-- Rounding to the nearest integer, ties to even, on the extended reals (the infinities fixed). -/
abbrev rnd : EReal → EReal := Ideal.liftRound Ideal.roundHalfEven

/-! ## Shifting a clip window -/

/-- Clipping `t` to the window `[a - z, b - z]` is clipping `t + z` to `[a, b]` and taking `z` off again. -/
theorem clip_shift (a b t z : ℝ) : min (b - z) (max (a - z) t) = min b (max a (t + z)) - z := by
  simp only [min_def, max_def]
  split_ifs <;> linarith

/-! ## The quantised activation, written both ways -/

/-- For a real activation and nonzero real scales the two spellings of the quantised value agree: the arguments of
    the rounding are the one real `x / r / s`, and the clip window moves with the zero point. -/
theorem quant_eq (x r s z : ℝ) (hr : r ≠ 0) (hs : s ≠ 0) :
    min (Ideal.ofBits .f32 0x42FE0000#32 - (z : EReal)) (max (Ideal.ofBits .f32 0xC3000000#32 - (z : EReal))
      (rnd ((x : EReal) * Ideal.div (Ideal.ofBits .f32 0x3F800000#32) ((r : EReal) * (s : EReal)))))
    = min (Ideal.ofBits .f32 0x42FE0000#32) (max (Ideal.ofBits .f32 0xC3000000#32)
        (rnd (Ideal.div (Ideal.div (x : EReal) (r : EReal)) (s : EReal)) + (z : EReal))) - (z : EReal) := by
  have hu : (x : EReal) * Ideal.div (Ideal.ofBits .f32 0x3F800000#32) ((r : EReal) * (s : EReal))
      = ((x / r / s : ℝ) : EReal) := by
    rw [word_one, ← EReal.coe_mul, Ideal.div_coe (mul_ne_zero hr hs), ← EReal.coe_mul, ← EReal.coe_mul]
    congr 1
    field_simp
  have hv : Ideal.div (Ideal.div (x : EReal) (r : EReal)) (s : EReal) = ((x / r / s : ℝ) : EReal) := by
    rw [Ideal.div_coe hr, ← EReal.coe_mul, Ideal.div_coe hs, ← EReal.coe_mul]
    congr 1
    field_simp
  have hrd : rnd ((x / r / s : ℝ) : EReal) = (((Ideal.roundHalfEven (x / r / s) : ℤ) : ℝ) : EReal) := rfl
  rw [hu, hv, word_qmin, word_qmax, hrd]
  rw [← EReal.coe_sub, ← EReal.coe_sub, ← EReal.coe_add, ← coe_max, ← coe_max, ← coe_min, ← coe_min, ← EReal.coe_sub]
  exact congrArg _ (clip_shift _ _ _ _)

/-! ## One term of the contraction -/

/-- One term of the sum over input channels, written both ways, for a real activation, a real reparametrisation
    scale `r ≠ 0`, ANY real quantisation scale `s` (zero included: both sides then vanish) and any weight `W`. -/
theorem term_eq (x r s z : ℝ) (hr : r ≠ 0) (W : EReal) :
    min (Ideal.ofBits .f32 0x42FE0000#32 - (z : EReal)) (max (Ideal.ofBits .f32 0xC3000000#32 - (z : EReal))
      (rnd ((x : EReal) * Ideal.div (Ideal.ofBits .f32 0x3F800000#32) ((r : EReal) * (s : EReal))))) * (W * (s : EReal))
    = ((min (Ideal.ofBits .f32 0x42FE0000#32) (max (Ideal.ofBits .f32 0xC3000000#32)
        (rnd (Ideal.div (Ideal.div (x : EReal) (r : EReal)) (s : EReal)) + (z : EReal))) - (z : EReal)) * (s : EReal)) * W := by
  by_cases hs : s = 0
  · subst hs
    simp only [EReal.coe_zero, mul_zero, zero_mul]
  · rw [quant_eq x r s z hr hs, mul_assoc, mul_comm W]

end Cert.FakeQuantLinear

end
-- ==== Proof.FoldedPayload.lean ====
/-
  The kernel body's stored value at an index of its block.

  One grid point holds 1024 rows of activations `xb[p, k]`, and, whole, the row vectors `inv[0, k]`, `lo[0, k]`, `hi[0, k]`,
  `bias[0, o]` and the matrix `wt[k, o]`. The body stores
      out[p, o] = (∑ k, clip (round (xb[p, k] · inv[0, k])) lo[0, k] hi[0, k] · wt[k, o]) + bias[0, o] :
  the product, rounding and clip are pointwise with each row vector broadcast down the rows, the change of float format
  is the identity on extended reals, and the matrix product into a zero accumulator is the plain sum over the
  contracted axis `k` (axis 1 of the left operand, axis 0 of the right).
-/
import proofs.«178737_j64415919506225_2_alg».proof.Proof.Gen.KernelIdeal.Skeleton
import proofs.«178737_j64415919506225_2_alg».proof.Proof.QuantLaw
import Idealize.ShloMosaic.PureOps.Ideal.Laws
import Idealize.ShloMosaic.Lib.ValueIdx
import Idealize.ShloMosaic.Lib.Pipeline.Value
import Idealize.ShloMosaic.Lib.ValueLayout

noncomputable section

namespace Cert.FakeQuantLinear.Folded

open Cert.KernelIdeal Cert.KernelIdeal.Gen Idealize.ShloMosaic Idealize.ShloMosaic.ValueIdx
open Cert.FakeQuantLinear

/-- The left operand's index: its row is the result's row (axis 0 is not contracted). -/
theorem lhs_row (i : S1024x2048.Idx) (q : dot_S1024x2048_S2048x2048_S1024x2048_1_0_0_1_n_n.contr.Idx) :
    (dot_S1024x2048_S2048x2048_S1024x2048_1_0_0_1_n_n.lhsIdx i q 0).val = (i 0).val := by
  unfold DotDims.lhsIdx
  rw [dif_neg (show ¬(0 : Fin S1024x2048.rank) ∈ dot_S1024x2048_S2048x2048_S1024x2048_1_0_0_1_n_n.lhsBatch by decide),
    dif_pos (show (0 : Fin S1024x2048.rank) ∈ dot_S1024x2048_S2048x2048_S1024x2048_1_0_0_1_n_n.lhsNonContracting by decide)]
  rfl

/-- The right operand's index: its column is the result's column (axis 1 is not contracted). -/
theorem rhs_col (i : S1024x2048.Idx) (q : dot_S1024x2048_S2048x2048_S1024x2048_1_0_0_1_n_n.contr.Idx) :
    (dot_S1024x2048_S2048x2048_S1024x2048_1_0_0_1_n_n.rhsIdx i q 1).val = (i 1).val := by
  unfold DotDims.rhsIdx
  rw [dif_neg (show ¬(1 : Fin S2048x2048.rank) ∈ dot_S1024x2048_S2048x2048_S1024x2048_1_0_0_1_n_n.rhsBatch by decide),
    dif_pos (show (1 : Fin S2048x2048.rank) ∈ dot_S1024x2048_S2048x2048_S1024x2048_1_0_0_1_n_n.rhsNonContracting by decide)]
  rfl

/-- The matrix product into a zero accumulator, at `(p, o)`: the sum over the input channel `k` of `l[p, k] · r[k, o]`. -/
theorem contraction_apply (l : FVec Ideal S1024x2048 .bf16) (r : FVec Ideal S2048x2048 .bf16) (p : Fin 1024) (o : Fin 2048) :
    matmul dot_S1024x2048_S2048x2048_S1024x2048_1_0_0_1_n_n none l r (constant (F := Ideal) S1024x2048 .f32 0x00000000#32) (ix2 p o)
      = ∑ k : Fin 2048, l (ix2 p k) * r (ix2 k o) := by
  refine (Ideal.matmul_constant_zero_apply dot_S1024x2048_S2048x2048_S1024x2048_1_0_0_1_n_n none l r (ix2 p o)).trans ?_
  rw [← Equiv.sum_comp (contrEquiv1 dot_S1024x2048_S2048x2048_S1024x2048_1_0_0_1_n_n 2048 rfl rfl).symm]
  refine Finset.sum_congr rfl fun k _ => ?_
  have hk := contrEquiv1_symm_val dot_S1024x2048_S2048x2048_S1024x2048_1_0_0_1_n_n 2048 rfl rfl k
  have el : dot_S1024x2048_S2048x2048_S1024x2048_1_0_0_1_n_n.lhsIdx (ix2 p o)
      ((contrEquiv1 dot_S1024x2048_S2048x2048_S1024x2048_1_0_0_1_n_n 2048 rfl rfl).symm k) = ix2 p k :=
    funext fun a => Fin.ext (by
      match a with
      | ⟨0, _⟩ => exact lhs_row _ _
      | ⟨1, _⟩ => exact (dot_S1024x2048_S2048x2048_S1024x2048_1_0_0_1_n_n.lhsIdx_val_of_single rfl _ _).trans hk)
  have er : dot_S1024x2048_S2048x2048_S1024x2048_1_0_0_1_n_n.rhsIdx (ix2 p o)
      ((contrEquiv1 dot_S1024x2048_S2048x2048_S1024x2048_1_0_0_1_n_n 2048 rfl rfl).symm k) = ix2 k o :=
    funext fun a => Fin.ext (by
      match a with
      | ⟨0, _⟩ => exact (dot_S1024x2048_S2048x2048_S1024x2048_1_0_0_1_n_n.rhsIdx_val_of_single rfl _ _).trans hk
      | ⟨1, _⟩ => exact rhs_col _ _)
  rw [el, er]

/-- The body's stored value at `(p, o)` of the block, from the loaded blocks. -/
theorem payload_apply (xb : FVec Ideal S1024x2048 .f32) (inv lo hi : FVec Ideal S1x2048 .f32) (wt : FVec Ideal S2048x2048 .bf16)
    (bias : FVec Ideal S1x2048 .f32) (p : Fin 1024) (o : Fin 2048) :
    k0_pay1 (F := Ideal) xb inv lo hi wt bias (ix2 p o)
      = (∑ k : Fin 2048, min (hi (ix2 (0 : Fin 1) k)) (max (lo (ix2 (0 : Fin 1) k)) (rnd (xb (ix2 p k) * inv (ix2 (0 : Fin 1) k))))
          * wt (ix2 k o)) + bias (ix2 (0 : Fin 1) o) := by
  unfold k0_pay1
  simp only [shapeCast_self]
  refine (addf_apply _ _ _).trans ?_
  refine congrArg₂ (· + ·) ((contraction_apply _ _ p o).trans (Finset.sum_congr rfl fun k _ => ?_))
    (broadcastTo_1b_ab_apply bias _ p o)
  refine congrArg (· * wt (ix2 k o)) ?_
  show min (broadcastTo S1024x2048 hi _ (ix2 p k)) (max (broadcastTo S1024x2048 lo _ (ix2 p k))
    (rnd (xb (ix2 p k) * broadcastTo S1024x2048 inv _ (ix2 p k)))) = _
  rw [broadcastTo_1b_ab_apply hi, broadcastTo_1b_ab_apply lo, broadcastTo_1b_ab_apply inv]

end Cert.FakeQuantLinear.Folded

end
-- ==== Proof.Spec.lean ====
/-
  The fake-quantised linear layer as ONE function of its argument arrays, written both ways, and the equality of the
  two under the layer's domain.

  Arrays: activations `x[n, d]` (32768 × 2048), per input channel `d` a reparametrisation scale `r[d]`, a quantisation scale
  `s[d]` and an integer zero point `z[d]`; integer weights `wi[o, d]` with per output channel `o` a scale `ws[o]` and an
  integer zero point `wz[o]`; a bias `b[o]`. The dequantised weight is `W[o, d] = (wi[o, d] - wz[o]) · ws[o]`.

  `foldedOut` quantises with the folded reciprocal `1 / (r · s)` and the clip window moved by the zero point, and
  carries the quantisation scale on the weight; `plainOut` divides twice, clips to the int8 range around the zero
  point, and carries the scale on the activation. Entry `(n, o)` of each is a sum over the input channels plus the
  bias; the sums agree term by term (`term_eq`) once `x`, `r`, `s` are real and `r` is nowhere zero.
-/
import proofs.«178737_j64415919506225_2_alg».proof.Proof.QuantLaw
import Idealize.ShloMosaic.Lib.ValueIdx

noncomputable section

namespace Cert.FakeQuantLinear

open Idealize.ShloMosaic Idealize.ShloMosaic.ValueIdx

/-- Activations and results: 32768 rows of 2048 channels. -/
abbrev SX : Shape := ⟨2, ![32768, 2048]⟩
/-- A per-channel vector. -/
abbrev SD : Shape := ⟨1, ![2048]⟩
/-- The weight matrix, output channel by input channel. -/
abbrev SW : Shape := ⟨2, ![2048, 2048]⟩

/-- The zero point of input channel `d`, an integer, as an extended real. -/
def zeroPt (z : IVec SD 32) (d : Fin 2048) : EReal := (((z (ix1 d)).toInt : ℝ) : EReal)

/-- The dequantised weight `W[o, d] = (wi[o, d] - wz[o]) · ws[o]`. -/
def weight (wi : IVec SW 32) (ws : FVec Ideal SD .f32) (wz : IVec SD 32) (o d : Fin 2048) : EReal :=
  ((((wi (ix2 o d)).toInt : ℝ) : EReal) - (((wz (ix1 o)).toInt : ℝ) : EReal)) * ws (ix1 o)

/-- Entry `(n, o)` with the folded reciprocal: the clip window is `[-128 - z, 127 - z]`, the scale rides on the weight. -/
def foldedOut (x : FVec Ideal SX .f32) (r s : FVec Ideal SD .f32) (z : IVec SD 32) (wi : IVec SW 32)
    (ws : FVec Ideal SD .f32) (wz : IVec SD 32) (b : FVec Ideal SD .f32) (n : Fin 32768) (o : Fin 2048) : EReal :=
  (∑ k : Fin 2048,
      min (Ideal.ofBits .f32 0x42FE0000#32 - zeroPt z k) (max (Ideal.ofBits .f32 0xC3000000#32 - zeroPt z k)
        (rnd (x (ix2 n k) * Ideal.div (Ideal.ofBits .f32 0x3F800000#32) (r (ix1 k) * s (ix1 k)))))
      * (weight wi ws wz o k * s (ix1 k)))
    + b (ix1 o)

/-- Entry `(n, o)` with two divisions: the clip window is `[-128, 127]` around the zero point, the scale rides on the
    activation. -/
def plainOut (x : FVec Ideal SX .f32) (r s : FVec Ideal SD .f32) (z : IVec SD 32) (wi : IVec SW 32)
    (ws : FVec Ideal SD .f32) (wz : IVec SD 32) (b : FVec Ideal SD .f32) (n : Fin 32768) (o : Fin 2048) : EReal :=
  (∑ k : Fin 2048,
      ((min (Ideal.ofBits .f32 0x42FE0000#32) (max (Ideal.ofBits .f32 0xC3000000#32)
          (rnd (Ideal.div (Ideal.div (x (ix2 n k)) (r (ix1 k))) (s (ix1 k))) + zeroPt z k)) - zeroPt z k) * s (ix1 k))
      * weight wi ws wz o k)
    + b (ix1 o)

/-- The whole result array, folded form. -/
def foldedSpec (x : FVec Ideal SX .f32) (r s : FVec Ideal SD .f32) (z : IVec SD 32) (wi : IVec SW 32)
    (ws : FVec Ideal SD .f32) (wz : IVec SD 32) (b : FVec Ideal SD .f32) : FVec Ideal SX .f32 :=
  fun i => foldedOut x r s z wi ws wz b (i 0) (i 1)

/-- The whole result array, plain form. -/
def plainSpec (x : FVec Ideal SX .f32) (r s : FVec Ideal SD .f32) (z : IVec SD 32) (wi : IVec SW 32)
    (ws : FVec Ideal SD .f32) (wz : IVec SD 32) (b : FVec Ideal SD .f32) : FVec Ideal SX .f32 :=
  fun i => plainOut x r s z wi ws wz b (i 0) (i 1)

/-- On the layer's domain — real activations, real scales, the reparametrisation scale nowhere zero — the two forms
    are one array: the sums over the input channels agree term by term. -/
theorem plainSpec_eq_foldedSpec (x : FVec Ideal SX .f32) (r s : FVec Ideal SD .f32) (z : IVec SD 32) (wi : IVec SW 32)
    (ws : FVec Ideal SD .f32) (wz : IVec SD 32) (b : FVec Ideal SD .f32)
    (hx : ∀ j, ∃ a : ℝ, x j = (a : EReal)) (hr : ∀ j, ∃ a : ℝ, r j = (a : EReal) ∧ a ≠ 0)
    (hs : ∀ j, ∃ a : ℝ, s j = (a : EReal)) :
    plainSpec x r s z wi ws wz b = foldedSpec x r s z wi ws wz b := by
  funext i
  unfold plainSpec foldedSpec plainOut foldedOut
  refine congrArg (· + b (ix1 (i 1))) (Finset.sum_congr rfl fun k _ => ?_)
  obtain ⟨xa, hxa⟩ := hx (ix2 (i 0) k)
  obtain ⟨ra, hra, hra0⟩ := hr (ix1 k)
  obtain ⟨sa, hsa⟩ := hs (ix1 k)
  rw [hxa, hra, hsa]
  exact (term_eq xa ra sa _ hra0 _).symm

end Cert.FakeQuantLinear

end
-- ==== Proof.FoldedWindows.lean ====
/-
  What the kernel's resident operands hold when the region is entered.

  Before the one launch the host computes, from the argument arrays, five arrays the kernel keeps whole at every grid
  point: the folded reciprocal `inv[0, k] = 1 / (r[k] · s[k])`, the moved clip bounds `lo[0, k] = -128 - z[k]` and
  `hi[0, k] = 127 - z[k]`, the scaled transposed weight `wt[k, o] = ((wi[o, k] - wz[o]) · ws[o]) · s[k]` (its change of
  float format the identity on extended reals), and the bias as a row `bias[0, o] = b[o]`. Each is the composed term of
  the host operations that write it, read here at an index: a reshape `[2048] → [1, 2048]` forgets the unit coordinate,
  a broadcast along rows or columns forgets the coordinate it repeats, a transpose swaps the two.
-/
import proofs.«178737_j64415919506225_2_alg».proof.Proof.Gen.KernelIdeal.Frame
import proofs.«178737_j64415919506225_2_alg».proof.Proof.Spec
import Idealize.ShloMosaic.Lib.StableHlo.Run
import Idealize.ShloMosaic.Lib.Pipeline.Value
import Idealize.ShloMosaic.Lib.ValueLayout

noncomputable section

namespace Cert.FakeQuantLinear.Folded

open Cert.KernelIdeal Cert.KernelIdeal.Gen Idealize.ShloMosaic Idealize.ShloMosaic.TcCoe Idealize.SL.Sem
open Idealize.ShloMosaic.StableHlo Idealize.ShloMosaic.ValueIdx
open Cert.FakeQuantLinear

/-! ## Broadcasts that forget a coordinate -/

section Layout
variable {α : Type}

/-- A per-output-channel vector repeated along the columns reads, at `(o, k)`, its entry `o`. -/
theorem alongColumns_apply (x : S2048.Idx → α) (o k : Fin 2048) :
    broadcastInDim S2048x2048 ![0, 1] bcast_S2048x1_S2048x2048_0_1 (broadcastInDim S2048x1 ![0] bcast_S2048_S2048x1_0 x) (ix2 o k)
      = x (ix1 o) := by
  refine (broadcastInDim_apply _ bcast_S2048x1_S2048x2048_0_1 _ (ix2 o k) (ix2 o (0 : Fin 1)) fun a => ?_).trans
    (broadcastInDim_apply _ bcast_S2048_S2048x1_0 x (ix2 o (0 : Fin 1)) (ix1 o) fun a => ?_)
  · match a with
    | ⟨0, _⟩ => show o.val = if (2048 : Nat) = 1 then 0 else o.val; rw [if_neg (by decide)]
    | ⟨1, _⟩ => show 0 = if (1 : Nat) = 1 then 0 else k.val; rw [if_pos rfl]
  · match a with
    | ⟨0, _⟩ => show o.val = if (2048 : Nat) = 1 then 0 else o.val; rw [if_neg (by decide)]

/-- A per-input-channel vector repeated along the rows reads, at `(o, k)`, its entry `k`. -/
theorem alongRows_apply (x : S2048.Idx → α) (o k : Fin 2048) :
    broadcastInDim S2048x2048 ![0, 1] bcast_S1x2048_S2048x2048_0_1 (broadcastInDim S1x2048 ![1] bcast_S2048_S1x2048_1 x) (ix2 o k)
      = x (ix1 k) := by
  refine (broadcastInDim_apply _ bcast_S1x2048_S2048x2048_0_1 _ (ix2 o k) (ix2 (0 : Fin 1) k) fun a => ?_).trans
    (broadcastInDim_apply _ bcast_S2048_S1x2048_1 x (ix2 (0 : Fin 1) k) (ix1 k) fun a => ?_)
  · match a with
    | ⟨0, _⟩ => show 0 = if (1 : Nat) = 1 then 0 else o.val; rw [if_pos rfl]
    | ⟨1, _⟩ => show k.val = if (2048 : Nat) = 1 then 0 else k.val; rw [if_neg (by decide)]
  · match a with
    | ⟨0, _⟩ => show k.val = if (2048 : Nat) = 1 then 0 else k.val; rw [if_neg (by decide)]

end Layout

variable (m : (ℓ : Loc nD τ sig) → Buf (Elt Ideal) ℓ) (c : Dev nD)

/-! ## The argument arrays of one device, typed as vectors -/

/-- The activations `x`. -/
abbrev argX : FVec Ideal S32768x2048 .f32 := m ((c : Thread nD τ).loc main_arg0)
/-- The reparametrisation scale `r`. -/
abbrev argR : FVec Ideal S2048 .f32 := m ((c : Thread nD τ).loc main_arg1)
/-- The quantisation scale `s`. -/
abbrev argS : FVec Ideal S2048 .f32 := m ((c : Thread nD τ).loc main_arg2)
/-- The activations' zero point `z`. -/
abbrev argZ : IVec S2048 32 := m ((c : Thread nD τ).loc main_arg3)
/-- The integer weights `wi`. -/
abbrev argWi : IVec S2048x2048 32 := m ((c : Thread nD τ).loc main_arg4)
/-- The weights' scale `ws`. -/
abbrev argWs : FVec Ideal S2048 .f32 := m ((c : Thread nD τ).loc main_arg5)
/-- The weights' zero point `wz`. -/
abbrev argWz : IVec S2048 32 := m ((c : Thread nD τ).loc main_arg6)
/-- The bias `b`. -/
abbrev argB : FVec Ideal S2048 .f32 := m ((c : Thread nD τ).loc main_arg7)

/-! ## The five arrays as the host leaves them -/

theorem inv_contents : (V m c main_v21 : S1x2048.Idx → EReal)
    = shapeCast S1x2048 (Host.divf (F := Ideal) (broadcastInDim S2048 ![] bcast_S_S2048 (constant (F := Ideal) S_ .f32 0x3F800000#32))
        (mulf (m ((c : Thread nD τ).loc main_arg1)) (m ((c : Thread nD τ).loc main_arg2)))) shapeCasts_S2048_S1x2048 := by
  dsimp only [Gen.V, Gen.hostOps0]; after_results; rfl

theorem lo_contents : (V m c main_v22 : S1x2048.Idx → EReal)
    = shapeCast S1x2048 (subf (broadcastInDim S2048 ![] bcast_S_S2048 (constant (F := Ideal) S_ .f32 0xC3000000#32))
        (sitofp (F := Ideal) .f32 (m ((c : Thread nD τ).loc main_arg3)))) shapeCasts_S2048_S1x2048 := by
  dsimp only [Gen.V, Gen.hostOps0]; after_results; rfl

theorem hi_contents : (V m c main_v23 : S1x2048.Idx → EReal)
    = shapeCast S1x2048 (subf (broadcastInDim S2048 ![] bcast_S_S2048 (constant (F := Ideal) S_ .f32 0x42FE0000#32))
        (sitofp (F := Ideal) .f32 (m ((c : Thread nD τ).loc main_arg3)))) shapeCasts_S2048_S1x2048 := by
  dsimp only [Gen.V, Gen.hostOps0]; after_results; rfl

theorem bias_contents : (V m c main_v24 : S1x2048.Idx → EReal)
    = shapeCast S1x2048 (m ((c : Thread nD τ).loc main_arg7)) shapeCasts_S2048_S1x2048 := by
  dsimp only [Gen.V, Gen.hostOps0]; after_results; rfl

set_option maxHeartbeats 4000000 in
theorem wt_contents : (V m c main_v20 : S2048x2048.Idx → EReal)
    = truncf .bf16 (transpose S2048x2048 [1, 0]
        (mulf (mulf (subf (sitofp (F := Ideal) .f32 (m ((c : Thread nD τ).loc main_arg4)))
              (broadcastInDim S2048x2048 ![0, 1] bcast_S2048x1_S2048x2048_0_1 (broadcastInDim S2048x1 ![0] bcast_S2048_S2048x1_0
                (sitofp (F := Ideal) .f32 (m ((c : Thread nD τ).loc main_arg6))))))
            (broadcastInDim S2048x2048 ![0, 1] bcast_S2048x1_S2048x2048_0_1 (broadcastInDim S2048x1 ![0] bcast_S2048_S2048x1_0
              (m ((c : Thread nD τ).loc main_arg5)))))
          (broadcastInDim S2048x2048 ![0, 1] bcast_S1x2048_S2048x2048_0_1 (broadcastInDim S1x2048 ![1] bcast_S2048_S1x2048_1
            (m ((c : Thread nD τ).loc main_arg2)))))
        transposes_S2048x2048_S2048x2048_1_0) bitsLt_bf16_f32 := by
  dsimp only [Gen.V, Gen.hostOps0]; after_results_simp <;> rfl

/-! ## Read at an index -/

/-- The folded reciprocal at channel `k`. -/
theorem inv_apply (k : Fin 2048) : (V m c main_v21 : S1x2048.Idx → EReal) (ix2 (0 : Fin 1) k)
    = Ideal.div (Ideal.ofBits .f32 0x3F800000#32) (argR m c (ix1 k) * argS m c (ix1 k)) := by
  rw [inv_contents]
  exact shapeCast_a_1a_apply _ _ 0 k

/-- The lower clip bound at channel `k`. -/
theorem lo_apply (k : Fin 2048) : (V m c main_v22 : S1x2048.Idx → EReal) (ix2 (0 : Fin 1) k)
    = Ideal.ofBits .f32 0xC3000000#32 - zeroPt (argZ m c) k := by
  rw [lo_contents]
  exact shapeCast_a_1a_apply _ _ 0 k

/-- The upper clip bound at channel `k`. -/
theorem hi_apply (k : Fin 2048) : (V m c main_v23 : S1x2048.Idx → EReal) (ix2 (0 : Fin 1) k)
    = Ideal.ofBits .f32 0x42FE0000#32 - zeroPt (argZ m c) k := by
  rw [hi_contents]
  exact shapeCast_a_1a_apply _ _ 0 k

/-- The bias at output channel `o`. -/
theorem bias_apply (o : Fin 2048) : (V m c main_v24 : S1x2048.Idx → EReal) (ix2 (0 : Fin 1) o) = argB m c (ix1 o) := by
  rw [bias_contents]
  exact shapeCast_a_1a_apply _ _ 0 o

/-- The scaled transposed weight at `(k, o)`. -/
theorem wt_apply (k o : Fin 2048) : (V m c main_v20 : S2048x2048.Idx → EReal) (ix2 k o)
    = weight (argWi m c) (argWs m c) (argWz m c) o k * argS m c (ix1 k) := by
  rw [wt_contents]
  refine (truncf_apply _ bitsLt_bf16_f32 (ix2 k o)).trans ?_
  refine (transpose_ix2_apply _ transposes_S2048x2048_S2048x2048_1_0 k o).trans ?_
  refine congrArg₂ (· * ·) (congrArg₂ (· * ·) (congrArg₂ (· - ·) rfl ?_) ?_) ?_
  · exact alongColumns_apply _ o k
  · exact alongColumns_apply _ o k
  · exact alongRows_apply _ o k

end Cert.FakeQuantLinear.Folded

end
-- ==== Proof.FoldedValue.lean ====
/-
  The kernel's result array after the run is the folded form of the layer.

  The launch visits 32 grid points; point `t` holds rows `1024 t … 1024 t + 1023` of the activations and of the result,
  and the five resident operands whole. So at row `p` of point `t` the body's stored value (a sum over the input
  channel plus the bias) is entry `(1024 t + p, o)` of the folded form: the activations' block is read at that row, the
  resident operands at their own indices, where the host left the folded reciprocal, the moved clip bounds, the scaled
  weight and the bias. The 32 row blocks tile the array — row `n` lies in the block of point `n / 1024` — so the array
  ends holding the folded form everywhere.
-/
import proofs.«178737_j64415919506225_2_alg».proof.Proof.Gen.KernelIdeal.Value
import proofs.«178737_j64415919506225_2_alg».proof.Proof.FoldedPayload
import proofs.«178737_j64415919506225_2_alg».proof.Proof.FoldedWindows

noncomputable section

namespace Cert.FakeQuantLinear.Folded

open Cert.KernelIdeal Cert.KernelIdeal.Gen Idealize.ShloMosaic Idealize.ShloMosaic.TcCoe Idealize.SL.Sem
open Idealize.ShloMosaic.ValueIdx
open Idealize.ShloMosaic.Pipeline (Dat)
open Cert.FakeQuantLinear

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the grid: the activations' and the result's blocks move down the rows with the point, the
    resident operands stay at block `(0, 0)`. -/
theorem index_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## Each operand's block at a point, read at an index -/

/-- The activations' block at point `t` is rows `1024 t …` of the activations. -/
theorem x_block (c : Dev nD) (t : Fin cfg0.N) (p : Fin 1024) (k : Fin 2048) (n : Fin 32768) (hn : n.val = 1024 * t.val + p.val) :
    (iblk m c 0 t : Vec Ideal S1024x2048 .f32) (ix2 p k) = argX m c (ix2 n k) := by
  obtain ⟨e0, e1, -⟩ := index_facts t
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t (0 : Fin 2) * 1024 + 1 * p.val = n.val; omega
  | ⟨1, _⟩ => show win0_0.index t (1 : Fin 2) * 2048 + 1 * k.val = k.val; omega

/-- The folded reciprocal's block is the whole row vector. -/
theorem inv_block (c : Dev nD) (t : Fin cfg0.N) (k : Fin 2048) :
    (iblk m c 1 t : Vec Ideal S1x2048 .f32) (ix2 (0 : Fin 1) k)
      = Ideal.div (Ideal.ofBits .f32 0x3F800000#32) (argR m c (ix1 k) * argS m c (ix1 k)) := by
  obtain ⟨-, -, -, -, e0, e1, -⟩ := index_facts t
  refine Eq.trans ?_ (inv_apply m c k)
  unfold iblk
  rw [View.read_apply]
  show V m c main_v21 _ = V m c main_v21 _
  refine congrArg (V m c main_v21) (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- The lower clip bound's block is the whole row vector. -/
theorem lo_block (c : Dev nD) (t : Fin cfg0.N) (k : Fin 2048) :
    (iblk m c 2 t : Vec Ideal S1x2048 .f32) (ix2 (0 : Fin 1) k) = Ideal.ofBits .f32 0xC3000000#32 - zeroPt (argZ m c) k := by
  obtain ⟨-, -, -, -, -, -, e0, e1, -⟩ := index_facts t
  refine Eq.trans ?_ (lo_apply m c k)
  unfold iblk
  rw [View.read_apply]
  show V m c main_v22 _ = V m c main_v22 _
  refine congrArg (V m c main_v22) (funext fun a => Fin.ext ?_)
  match a with
  | ⟨0, _⟩ => show win0_2.index t (0 : Fin 2) * 1 + 1 * 0 = 0; omega
  | ⟨1, _⟩ => show win0_2.index t (1 : Fin 2) * 2048 + 1 * k.val = k.val; omega

/-- The upper clip bound's block is the whole row vector. -/
theorem hi_block (c : Dev nD) (t : Fin cfg0.N) (k : Fin 2048) :
    (iblk m c 3 t : Vec Ideal S1x2048 .f32) (ix2 (0 : Fin 1) k) = Ideal.ofBits .f32 0x42FE0000#32 - zeroPt (argZ m c) k := by
  obtain ⟨-, -, -, -, -, -, -, -, e0, e1, -⟩ := index_facts t
  refine Eq.trans ?_ (hi_apply m c k)
  unfold iblk
  rw [View.read_apply]
  show V m c main_v23 _ = V m c main_v23 _
  refine congrArg (V m c main_v23) (funext fun a => Fin.ext ?_)
  match a with
  | ⟨0, _⟩ => show win0_3.index t (0 : Fin 2) * 1 + 1 * 0 = 0; omega
  | ⟨1, _⟩ => show win0_3.index t (1 : Fin 2) * 2048 + 1 * k.val = k.val; omega

/-- The scaled weight's block is the whole matrix. -/
theorem wt_block (c : Dev nD) (t : Fin cfg0.N) (k o : Fin 2048) :
    (iblk m c 4 t : Vec Ideal S2048x2048 .bf16) (ix2 k o)
      = weight (argWi m c) (argWs m c) (argWz m c) o k * argS m c (ix1 k) := by
  obtain ⟨-, -, -, -, -, -, -, -, -, -, e0, e1, -⟩ := index_facts t
  refine Eq.trans ?_ (wt_apply m c k o)
  unfold iblk
  rw [View.read_apply]
  show V m c main_v20 _ = V m c main_v20 _
  refine congrArg (V m c main_v20) (funext fun a => Fin.ext ?_)
  match a with
  | ⟨0, _⟩ => show win0_4.index t (0 : Fin 2) * 2048 + 1 * k.val = k.val; omega
  | ⟨1, _⟩ => show win0_4.index t (1 : Fin 2) * 2048 + 1 * o.val = o.val; omega

/-- The bias's block is the whole row vector. -/
theorem bias_block (c : Dev nD) (t : Fin cfg0.N) (o : Fin 2048) :
    (iblk m c 5 t : Vec Ideal S1x2048 .f32) (ix2 (0 : Fin 1) o) = argB m c (ix1 o) := by
  obtain ⟨-, -, -, -, -, -, -, -, -, -, -, -, e0, e1⟩ := index_facts t
  refine Eq.trans ?_ (bias_apply m c o)
  unfold iblk
  rw [View.read_apply]
  show V m c main_v24 _ = V m c main_v24 _
  refine congrArg (V m c main_v24) (funext fun a => Fin.ext ?_)
  match a with
  | ⟨0, _⟩ => show win0_5.index t (0 : Fin 2) * 1 + 1 * 0 = 0; omega
  | ⟨1, _⟩ => show win0_5.index t (1 : Fin 2) * 2048 + 1 * o.val = o.val; omega

/-! ## What one point stores -/

/-- The folded form of the layer, of one device's argument arrays. -/
abbrev result (c : Dev nD) : FVec Ideal S32768x2048 .f32 :=
  foldedSpec (argX m c) (argR m c) (argS m c) (argZ m c) (argWi m c) (argWs m c) (argWz m c) (argB m c)

/-- Point `t` stores, at `j` of its block, the folded form at row `1024 t + j₀` and column `j₁`. -/
theorem point_value (c : Dev nD) (t : Fin cfg0.N) (j : S1024x2048.Idx) (i : S32768x2048.Idx)
    (hi0 : (i 0).val = 1024 * t.val + (j 0).val) (hi1 : (i 1).val = (j 1).val) :
    k0_pay1 (F := Ideal) (iblk m c 0 t) (iblk m c 1 t) (iblk m c 2 t) (iblk m c 3 t) (iblk m c 4 t) (iblk m c 5 t) j
      = result m c i := by
  obtain ⟨p, o, rfl⟩ : ∃ (p : Fin 1024) (o : Fin 2048), j = ix2 p o := ⟨j 0, j 1, eq_ix2 j⟩
  obtain ⟨n, o', rfl⟩ : ∃ (n : Fin 32768) (o' : Fin 2048), i = ix2 n o' := ⟨i 0, i 1, eq_ix2 i⟩
  obtain rfl : o' = o := Fin.ext hi1
  refine (payload_apply (iblk m c 0 t) (iblk m c 1 t) (iblk m c 2 t) (iblk m c 3 t) (iblk m c 4 t) (iblk m c 5 t) p o').trans ?_
  show _ = foldedOut (argX m c) (argR m c) (argS m c) (argZ m c) (argWi m c) (argWs m c) (argWz m c) (argB m c) n o'
  unfold foldedOut
  refine congrArg₂ (· + ·) (Finset.sum_congr rfl fun k _ => ?_) (bias_block m c t o')
  exact congrArg₂ (· * ·)
    (congrArg₂ min (hi_block m c t k) (congrArg₂ max (lo_block m c t k)
      (congrArg rnd (congrArg₂ (· * ·) (x_block m c t p k n hi0) (inv_block m c t k)))))
    (wt_block m c t k o')

/-! ## From blocks to the array -/

/-- What point `t` writes back is block `t` of the folded form. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero zero_offsets]
  simp only [View.ld_unit_zero (S := S1024x2048) zero_offsets, View.ld_unit_zero (S := S1x2048) zero_offsets,
    View.ld_unit_zero (S := S2048x2048) zero_offsets]
  obtain ⟨-, -, e0, e1, -⟩ := index_facts t
  funext j
  rw [View.read_apply]
  refine point_value m c t j _ ?_ ?_
  · show win0_6.index t (0 : Fin 2) * 1024 + 1 * (j 0).val = 1024 * t.val + (j 0).val; omega
  · show win0_6.index t (1 : Fin 2) * 2048 + 1 * (j 1).val = (j 1).val; omega

/-- Membership in point `t`'s block of the result, coordinate by coordinate. -/
theorem mem_block (t : Fin cfg0.N) (i : S32768x2048.Idx) :
    i ∈ ((cfg0.win 6).blk t).view.set ↔ ∀ a : Fin 2, win0_6.index t a * S1024x2048.size a ≤ (i a).val
      ∧ (i a).val < win0_6.index t a * S1024x2048.size a + S1024x2048.size a := by
  show i ∈ ((View.whole main_v25).slice (win0_6.rect t)).set ↔ _
  rw [View.set_slice_whole, Rect.mem_set_unit]
  exact Iff.rfl

/-- Every index of the result lies in the block of the point `row / 1024`. -/
theorem covered (i : S32768x2048.Idx) : ∃ t : Fin cfg0.N, (cfg0.win 6).flush t = true ∧ i ∈ ((cfg0.win 6).blk t).view.set := by
  have hN : cfg0.N = 32 := N_0
  have hi0 : (i 0).val < 32768 := (i 0).isLt
  have hi1 : (i 1).val < 2048 := (i 1).isLt
  refine ⟨⟨(i 0).val / 1024, by rw [hN]; omega⟩, flush0_6 _, ?_⟩
  rw [mem_block]
  obtain ⟨-, -, e0, e1, -⟩ := index_facts ⟨(i 0).val / 1024, by rw [hN]; omega⟩
  intro a
  match a with
  | ⟨0, _⟩ =>
    show win0_6.index _ (0 : Fin 2) * 1024 ≤ (i 0).val ∧ (i 0).val < win0_6.index _ (0 : Fin 2) * 1024 + 1024
    rw [e0]; show (i 0).val / 1024 * 1024 ≤ (i 0).val ∧ (i 0).val < (i 0).val / 1024 * 1024 + 1024; omega
  | ⟨1, _⟩ =>
    show win0_6.index _ (1 : Fin 2) * 2048 ≤ (i 1).val ∧ (i 1).val < win0_6.index _ (1 : Fin 2) * 2048 + 2048
    rw [e1]; omega

/-- The result array after the run is the folded form. -/
theorem final (c : Dev nD) : (dats m 0 c).arrAt 6 cfg0.N = result m c :=
  (dats m 0 c).arrAt_eq_of_cover 6 (result m c) (fun t _ => flushed_eq m c t) covered

/-- The kernel's run, read: the result at the folded form of the arguments, the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.FakeQuantLinear.Folded

end
-- ==== Proof.PlainValue.lean ====
/-
  The reference program's result is the plain form of the layer.

  The reference's run ends at the composed term of its host operations; read one operation at a time at an index
  `(n, o)`, the outermost addition is the bias at `o` added to a contraction over the input channel `k`, whose left factor
  at `(n, k)` is the dequantised activation — divide by the two scales, round, add the zero point, clip to the int8
  range, take the zero point off, multiply by the quantisation scale — and whose right factor at `(o, k)` is the
  dequantised weight. Every broadcast only forgets a coordinate, so each per-channel vector is read at `k` or at `o`.
-/
import proofs.«178737_j64415919506225_2_alg».proof.Proof.Gen.ReferenceIdeal.Read
import proofs.«178737_j64415919506225_2_alg».proof.Proof.Spec

noncomputable section

namespace Cert.FakeQuantLinear.Plain

open Cert.ReferenceIdeal Cert.ReferenceIdeal.Gen Cert.ReferenceIdeal.Read Idealize.ShloMosaic Idealize.ShloMosaic.ValueIdx
open Cert.FakeQuantLinear

/-- The dequantised activation at `(n, k)`: the left factor of the contraction. -/
theorem activation_apply (x0 : (⟨S32768x2048, .f32⟩ : BufTy).Contents (Elt Ideal)) (x1 x2 : (⟨S2048, .f32⟩ : BufTy).Contents (Elt Ideal))
    (x3 : (⟨S2048, .i32⟩ : BufTy).Contents (Elt Ideal)) (n : Fin 32768) (k : Fin 2048) :
    val_main_v17 (F := Ideal) x0 x1 x2 x3 (ix2 n k)
      = (min (Ideal.ofBits .f32 0x42FE0000#32) (max (Ideal.ofBits .f32 0xC3000000#32)
          (rnd (Ideal.div (Ideal.div (x0 (ix2 n k)) (x1 (ix1 k))) (x2 (ix1 k))) + zeroPt x3 k)) - zeroPt x3 k) * x2 (ix1 k) := by
  have e1 : idx_main_v1 (idx_main_v2 (ix2 n k)) = ix1 k := funext fun a => Fin.ext (by match a with | ⟨0, _⟩ => rfl)
  have e4 : idx_main_v4 (idx_main_v5 (ix2 n k)) = ix1 k := funext fun a => Fin.ext (by match a with | ⟨0, _⟩ => rfl)
  have e8 : idx_main_v8 (idx_main_v9 (ix2 n k)) = ix1 k := funext fun a => Fin.ext (by match a with | ⟨0, _⟩ => rfl)
  have e12 : idx_main_v12 (idx_main_v13 (ix2 n k)) = ix1 k := funext fun a => Fin.ext (by match a with | ⟨0, _⟩ => rfl)
  have e15 : idx_main_v15 (idx_main_v16 (ix2 n k)) = ix1 k := funext fun a => Fin.ext (by match a with | ⟨0, _⟩ => rfl)
  simp only [val_main_v17_apply, val_main_v14_apply, val_main_v11_apply, val_main_call1_v4_apply, val_main_call1_v3_apply,
    val_main_cst_0_apply, val_main_call1_v2_apply, val_main_call1_v1_apply, val_main_call1_v0_apply, val_main_cst_apply,
    val_main_v10_apply, val_main_v7_apply, val_main_v6_apply, val_main_v3_apply, val_main_v2_apply, val_main_v1_apply,
    val_main_v5_apply, val_main_v4_apply, val_main_v9_apply, val_main_v8_apply, val_main_v0_apply, val_main_v13_apply,
    val_main_v12_apply, val_main_v16_apply, val_main_v15_apply, e1, e4, e8, e12, e15]
  simp only [Ideal.hostDivf_def, Ideal.hostUnary_roundeven_def, Ideal.addf_def, Ideal.subf_def, Ideal.mulf_def,
    Ideal.maximumf_def, Ideal.minimumf_def, Ideal.ofBits_def]
  rfl

/-- The dequantised weight at `(o, k)`: the right factor of the contraction. -/
theorem weight_apply (x4 : (⟨S2048x2048, .i32⟩ : BufTy).Contents (Elt Ideal)) (x5 : (⟨S2048, .f32⟩ : BufTy).Contents (Elt Ideal))
    (x6 : (⟨S2048, .i32⟩ : BufTy).Contents (Elt Ideal)) (o k : Fin 2048) :
    val_main_v25 (F := Ideal) x4 x5 x6 (ix2 o k) = weight x4 x5 x6 o k := by
  have e20 : idx_main_v20 (idx_main_v21 (ix2 o k)) = ix1 o := funext fun a => Fin.ext (by match a with | ⟨0, _⟩ => rfl)
  have e23 : idx_main_v23 (idx_main_v24 (ix2 o k)) = ix1 o := funext fun a => Fin.ext (by match a with | ⟨0, _⟩ => rfl)
  simp only [val_main_v25_apply, val_main_v22_apply, val_main_v18_apply, val_main_v21_apply, val_main_v20_apply,
    val_main_v19_apply, val_main_v24_apply, val_main_v23_apply, e20, e23]
  simp only [Ideal.subf_def, Ideal.mulf_def]
  rfl

/-- The reference's last stage is the plain form of the layer, as one array. -/
theorem result_eq (x0 : (⟨S32768x2048, .f32⟩ : BufTy).Contents (Elt Ideal)) (x1 x2 : (⟨S2048, .f32⟩ : BufTy).Contents (Elt Ideal))
    (x3 : (⟨S2048, .i32⟩ : BufTy).Contents (Elt Ideal)) (x4 : (⟨S2048x2048, .i32⟩ : BufTy).Contents (Elt Ideal))
    (x5 : (⟨S2048, .f32⟩ : BufTy).Contents (Elt Ideal)) (x6 : (⟨S2048, .i32⟩ : BufTy).Contents (Elt Ideal))
    (x7 : (⟨S2048, .f32⟩ : BufTy).Contents (Elt Ideal)) :
    val_main_v29 (F := Ideal) x0 x1 x2 x3 x4 x5 x6 x7 = plainSpec x0 x1 x2 x3 x4 x5 x6 x7 := by
  funext i
  obtain ⟨n, o, rfl⟩ : ∃ (n : Fin 32768) (o : Fin 2048), i = ix2 n o := ⟨i 0, i 1, eq_ix2 i⟩
  have eb : idx_main_v27 (idx_main_v28 (ix2 n o)) = ix1 o := funext fun a => Fin.ext (by match a with | ⟨0, _⟩ => rfl)
  rw [val_main_v29_apply, val_main_v26_apply, val_main_v28_apply, val_main_v27_apply, eb]
  show _ = plainOut x0 x1 x2 x3 x4 x5 x6 x7 n o
  unfold plainOut
  refine congrArg (· + x7 (ix1 o)) (Finset.sum_congr rfl fun k _ => ?_)
  have el : lidx_main_v26 (ix2 n o) k = ix2 n k :=
    funext fun a => Fin.ext (by match a with | ⟨0, _⟩ => rfl | ⟨1, _⟩ => rfl)
  have er : ridx_main_v26 (ix2 n o) k = ix2 o k :=
    funext fun a => Fin.ext (by match a with | ⟨0, _⟩ => rfl | ⟨1, _⟩ => rfl)
  rw [el, er, activation_apply, weight_apply]

end Cert.FakeQuantLinear.Plain

end
-- ==== Proof.Domain.lean ====
/-
  The layer's domain, read off the precondition.

  The precondition is a conjunction of six tests, each an `all` over one argument array: `|v| < +∞` at every entry of the
  activations, the two activation scales, the weight scale and the bias, and `r ≠ 0` at every entry of the
  reparametrisation scale. An extended real whose absolute value is below `+∞` is a real number; so the activations
  and both activation scales are arrays of reals, and the reparametrisation scale is nowhere zero. (The tests on the
  weight scale and the bias are not needed: the layer's two forms agree for any extended-real weight and bias.)
-/
import proofs.«178737_j64415919506225_2_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.Affine

noncomputable section

namespace Cert.FakeQuantLinear.Domain

open Cert.Pre_finite_inputs Idealize.ShloMosaic Idealize.ShloMosaic.ValueIdx

/-- An array with no axes has one index. -/
instance : Subsingleton S_.Idx := ⟨fun a b => funext fun d => d.elim0⟩

/-- The word of `+∞`. -/
theorem word_inf : Ideal.ofBits .f32 0x7F800000#32 = ⊤ := by
  simp [Ideal.ofBits, Ideal.ieee]

/-- An extended real whose absolute value tests below `+∞` is a real number. -/
theorem real_of_abs_lt_inf (v : EReal) (h : Ideal.cmp .olt (max v (-v)) (Ideal.ofBits .f32 0x7F800000#32) = 1#1) :
    ∃ a : ℝ, v = (a : EReal) := by
  rw [word_inf] at h
  have h2 : max v (-v) < ⊤ := by
    by_contra hn
    have h0 : Ideal.cmp .olt (max v (-v)) ⊤ = 0#1 := by simp [Ideal.cmp, hn]
    rw [h0] at h
    exact absurd h (by decide)
  induction v using EReal.rec with
  | bot => simp at h2
  | coe a => exact ⟨a, rfl⟩
  | top => simp at h2

/-- An extended real that tests different from the zero word is not zero. -/
theorem ne_zero_of_une (v : EReal) (h : Ideal.cmp .une v (Ideal.ofBits .f32 0x00000000#32) = 1#1) : v ≠ 0 := by
  rw [Ideal.ofBits_zero_f32] at h
  intro hv
  have h0 : Ideal.cmp .une v 0 = 0#1 := by simp [Ideal.cmp, hv]
  rw [h0] at h
  exact absurd h (by decide)

variable [Facts]
open Facts

/-- From the precondition's value: real activations, real activation scales, a reparametrisation scale nowhere zero. -/
theorem of_pre (x : FVec Ideal S32768x2048 .f32) (r s : FVec Ideal S2048 .f32) (z : IVec S2048 32) (wi : IVec S2048x2048 32)
    (ws : FVec Ideal S2048 .f32) (wz : IVec S2048 32) (b : FVec Ideal S2048 .f32)
    (h : fn (F := Ideal) x r s z wi ws wz b = fun _ => 1#1) :
    (∀ j, ∃ a : ℝ, x j = (a : EReal)) ∧ (∀ j, ∃ a : ℝ, r j = (a : EReal) ∧ a ≠ 0) ∧ (∀ j, ∃ a : ℝ, s j = (a : EReal)) := by
  have h0 := congrFun h ix0
  dsimp only [fn, fn_part1] at h0
  obtain ⟨h1, hne⟩ := IntOp.andi_eq_one.1 h0
  obtain ⟨h2, _hb⟩ := IntOp.andi_eq_one.1 h1
  obtain ⟨h3, _hws⟩ := IntOp.andi_eq_one.1 h2
  obtain ⟨h4, hs⟩ := IntOp.andi_eq_one.1 h3
  obtain ⟨hx, hr⟩ := IntOp.andi_eq_one.1 h4
  have rx := Host.reduce_andi_all _ _ reducesTo_S32768x2048_S_d0_1 h_S_ ix0 hx
  have rr := Host.reduce_andi_all _ _ reducesTo_S2048_S_d0 h_S_ ix0 hr
  have rs := Host.reduce_andi_all _ _ reducesTo_S2048_S_d0 h_S_ ix0 hs
  have rne := Host.reduce_andi_all _ _ reducesTo_S2048_S_d0 h_S_ ix0 hne
  refine ⟨fun j => real_of_abs_lt_inf (x j) (rx j), fun j => ?_, fun j => real_of_abs_lt_inf (s j) (rs j)⟩
  obtain ⟨a, ha⟩ := real_of_abs_lt_inf (r j) (rr j)
  refine ⟨a, ha, fun h0 => ne_zero_of_une (r j) (rne j) ?_⟩
  rw [ha, h0, EReal.coe_zero]

end Cert.FakeQuantLinear.Domain

end
-- ==== Proof.lean ====
/-
  A fake-quantised linear layer, two ways, equal on the extended reals.

  Both programs map activations `x[n, d]`, per-input-channel scales `r[d]`, `s[d]` and zero point `z[d]`, integer weights
  `wi[o, d]` with per-output-channel scale `ws[o]` and zero point `wz[o]`, and a bias `b[o]`, to
      y[n, o] = ∑ d, dequantised activation [n, d] · dequantised weight [o, d]  +  b[o].
  One spells the quantised activation as `clip (round (x · (1 / (r · s)))) (-128 - z) (127 - z)` and carries the scale `s` on
  the weight (Proof/FoldedValue.lean: what its result array holds after the run); the other spells it as
  `clip (round ((x / r) / s) + z) (-128) 127 - z` and carries `s` on the activation (Proof/PlainValue.lean: its run's last
  stage read index by index). Where `x`, `r`, `s` are real and `r ≠ 0` — which the precondition says (Proof/Domain.lean) —
  the two sums agree term by term (Proof/QuantLaw.lean, Proof/Spec.lean): for `s ≠ 0` both roundings see the real
  `x / r / s` and a clip window moved by `z` is the clip of the value moved by `z`; for `s = 0` both terms are a product
  with `0`. Nothing is asked of the weights or the bias: the identity is between two groupings of one product.
  The idealisation rewrote nothing in the first program, so that claim is `True`; the three frames are the generated
  ones, the third the second program's generated run with its result dropped.
-/
import proofs.«178737_j64415919506225_2_alg».proof.Defs
import proofs.«178737_j64415919506225_2_alg».proof.Proof.Gen.Kernel
import proofs.«178737_j64415919506225_2_alg».proof.Proof.Gen.Kernel.Skeleton
import proofs.«178737_j64415919506225_2_alg».proof.Proof.Gen.Kernel.Launch
import proofs.«178737_j64415919506225_2_alg».proof.Proof.Gen.Kernel.Points
import proofs.«178737_j64415919506225_2_alg».proof.Proof.Gen.Kernel.Frame
import proofs.«178737_j64415919506225_2_alg».proof.Proof.Gen.KernelIdeal
import proofs.«178737_j64415919506225_2_alg».proof.Proof.Gen.KernelIdeal.Skeleton
import proofs.«178737_j64415919506225_2_alg».proof.Proof.Gen.KernelIdeal.Launch
import proofs.«178737_j64415919506225_2_alg».proof.Proof.Gen.KernelIdeal.Points
import proofs.«178737_j64415919506225_2_alg».proof.Proof.Gen.KernelIdeal.Frame
import proofs.«178737_j64415919506225_2_alg».proof.Proof.Gen.ReferenceIdeal
import proofs.«178737_j64415919506225_2_alg».proof.Proof.Gen.Pre_finite_inputs
import proofs.«178737_j64415919506225_2_alg».proof.Proof.Gen.KernelIdeal.Value
import proofs.«178737_j64415919506225_2_alg».proof.Proof.Gen.ReferenceIdeal.Run
import proofs.«178737_j64415919506225_2_alg».proof.Proof.Gen.ReferenceIdeal.Read
import proofs.«178737_j64415919506225_2_alg».proof.Proof.FoldedValue
import proofs.«178737_j64415919506225_2_alg».proof.Proof.PlainValue
import proofs.«178737_j64415919506225_2_alg».proof.Proof.Domain
import Idealize.ShloMosaic.Adequacy
import Idealize.ShloMosaic.Init

noncomputable section

namespace Cert.Proof

open Idealize.ShloMosaic Idealize.SL.Sem

namespace LayerClaims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- No operation of the first program was rewritten when it was read over the extended reals. -/
theorem preserves : Cert.preserves_Kernel_KernelIdeal := trivial

/-- The first program's result array ends at the folded form of the layer, the second's at the plain form, of
    arguments that agree; on the precondition's domain the two forms are one array. -/
theorem algebraic : Cert.algebraic_KernelIdeal_ReferenceIdeal := by
  intro m ρ m' ρ' hpre hagree
  refine ⟨fun c => Cert.FakeQuantLinear.Folded.result m c, Cert.FakeQuantLinear.Folded.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  obtain ⟨hx, hr, hs⟩ := Cert.FakeQuantLinear.Domain.of_pre _ _ _ _ _ _ _ _ (hpre c)
  refine (Cert.FakeQuantLinear.Plain.result_eq _ _ _ _ _ _ _ _).trans ?_
  exact Cert.FakeQuantLinear.plainSpec_eq_foldedSpec _ _ _ _ _ _ _ _ hx hr hs

end LayerClaims

theorem claim : Cert.Claim :=
  ⟨Cert.Kernel.Gen.facts, Cert.KernelIdeal.Gen.facts, Cert.ReferenceIdeal.Gen.facts, Cert.Pre_finite_inputs.Gen.facts,
    LayerClaims.frame_k, LayerClaims.frame_ki, LayerClaims.frame_ri, LayerClaims.preserves, LayerClaims.algebraic⟩

end Cert.Proof

end
